-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192 : Shape := ⟨2, ![8, 8192]⟩
abbrev S256x512 : Shape := ⟨2, ![256, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel

variable [Facts]

def fn {F : FTy → Type} [FloatOps F] (main_arg0 : IVec S8x8192 32) (main_arg1 : FVec F S256x512 .f32) : IVec S_ 1 :=
  let main_v0 : FVec F S256x512 .f32 := Host.absf main_arg1
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  main_v3
-- ==== Kernel.lean ====
abbrev S8x8192 : Shape := ⟨2, ![8, 8192]⟩
abbrev S256x512 : Shape := ⟨2, ![256, 512]⟩
abbrev S65536x1 : Shape := ⟨2, ![65536, 1]⟩
abbrev S65536x512 : Shape := ⟨2, ![65536, 512]⟩
abbrev S2048x1 : Shape := ⟨2, ![2048, 1]⟩
abbrev S2048x512 : Shape := ⟨2, ![2048, 512]⟩
abbrev S2048x256 : Shape := ⟨2, ![2048, 256]⟩
abbrev S8x8192x512 : Shape := ⟨3, ![8, 8192, 512]⟩

abbrev nBuf : Space → Nat
  | .hbm => 6
  | .vmem => 5
  | .smem => 0
  | _ => 0

abbrev bufTy : (tb : Table) → Fin (tcTables nBuf tb) → BufTy
  | .hbm, ⟨0, _⟩ => ⟨S8x8192, .i32⟩
  | .hbm, ⟨1, _⟩ => ⟨S256x512, .f32⟩
  | .hbm, ⟨2, _⟩ => ⟨S65536x1, .i32⟩
  | .hbm, ⟨3, _⟩ => ⟨S256x512, .bf16⟩
  | .hbm, ⟨4, _⟩ => ⟨S65536x512, .f32⟩
  | .hbm, ⟨5, _⟩ => ⟨S8x8192x512, .f32⟩
  | .local _ .vmem, ⟨0, _⟩ => ⟨S2048x1, .i32⟩
  | .local _ .vmem, ⟨1, _⟩ => ⟨S2048x1, .i32⟩
  | .local _ .vmem, ⟨2, _⟩ => ⟨S256x512, .bf16⟩
  | .local _ .vmem, ⟨3, _⟩ => ⟨S2048x512, .f32⟩
  | .local _ .vmem, ⟨4, _⟩ => ⟨S2048x512, .f32⟩
  | _, _ => ⟨S8x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x8192_S65536x1 : S8x8192.ShapeCasts S65536x1
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x256_d1_w32 : S2048x256.Iotas .tc 32 [1]
  broadcasts_S2048x1_S2048x256 : S2048x1.Broadcasts S2048x256
  natLt_1_32 : 1 < 32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2048x512_S2048x512_0_0 : ∀ a, (![0, 0] : Fin 2 → Nat) a + S2048x512.size a ≤ S2048x512.size a
  h_S2048x512 : 0 < S2048x512.numel
  shapeCasts_S65536x512_S8x8192x512 : S65536x512.ShapeCasts S8x8192x512
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S65536x1.size a
  hwx0_0 : ∀ i : grid0.Coords, EltTy.bits .i32 = 32 ∨ (Rect.block (s := S65536x1) S2048x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S65536x512.size a
  hwx0_2 : ∀ i : grid0.Coords, EltTy.bits .f32 = 32 ∨ (Rect.block (s := S65536x512) S2048x512.size (cc0_transform_2 i) (hinb0_2 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8192 : Shape := ⟨2, ![8, 8192]⟩
abbrev S256x512 : Shape := ⟨2, ![256, 512]⟩
abbrev S8x8192x1 : Shape := ⟨3, ![8, 8192, 1]⟩
abbrev S1x1x256 : Shape := ⟨3, ![1, 1, 256]⟩
abbrev S8x8192x256 : Shape := ⟨3, ![8, 8192, 256]⟩
abbrev S8x8192x512 : Shape := ⟨3, ![8, 8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8x8192, .i32⟩
  | .hbm, ⟨1, _⟩ => ⟨S256x512, .f32⟩
  | .hbm, ⟨2, _⟩ => ⟨S8x8192x1, .i32⟩
  | .hbm, ⟨3, _⟩ => ⟨S1x1x256, .i32⟩
  | .hbm, ⟨4, _⟩ => ⟨S8x8192x256, .i32⟩
  | .hbm, ⟨5, _⟩ => ⟨S8x8192x256, .i32⟩
  | .hbm, ⟨6, _⟩ => ⟨S8x8192x256, .i1⟩
  | .hbm, ⟨7, _⟩ => ⟨S8x8192x256, .f32⟩
  | .hbm, ⟨8, _⟩ => ⟨S8x8192x512, .f32⟩
  | _, _ => ⟨S8x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩

abbrev nD : Nat := 1
abbrev τ : Topo := Topo.v7x

variable {F : FTy → Type} [FloatOps F]

class Facts₀ : Prop where
  bcast_S8x8192_S8x8192x1_0_1 : S8x8192.BroadcastsInDim S8x8192x1 (![0, 1] : Fin 2 → Fin S8x8192x1.rank)
  bcast_S8x8192x1_S8x8192x256_0_1_2 : S8x8192x1.BroadcastsInDim S8x8192x256 (![0, 1, 2] : Fin 3 → Fin S8x8192x256.rank)
  bcast_S1x1x256_S8x8192x256_0_1_2 : S1x1x256.BroadcastsInDim S8x8192x256 (![0, 1, 2] : Fin 3 → Fin S8x8192x256.rank)
  dot_S8x8192x256_S256x512_S8x8192x512_2_0_01_1_n_n_wf : DotDims.WF S8x8192x256 S256x512 S8x8192x512 [2] [0] [0, 1] [1] [] []

variable [Facts₀]

def dot_S8x8192x256_S256x512_S8x8192x512_2_0_01_1_n_n : DotDims S8x8192x256 S256x512 S8x8192x512 where
  lhsContracting := [2]
  rhsContracting := [0]
  lhsNonContracting := [0, 1]
  rhsNonContracting := [1]
  lhsBatch := []
  rhsBatch := []
  wf := dot_S8x8192x256_S256x512_S8x8192x512_2_0_01_1_n_n_wf

class Facts : Prop extends Facts₀ where

variable [Facts]
-- ==== Proof.Lookup.lean ====
/-
  The table lookup that both programs compute, stated once and over no program.

  An array `x` of 32-bit integer ids and a table `w` with 256 rows of 512 extended reals give

      out (b, s, d) = Σ_{v < 256} [x (b, s) = v] · w (v, d),

  where the weight `[a = v]` is 1 when the id `a` is the 32-bit word of the row number `v` and 0
  otherwise. At most one weight of a row is 1, so the sum picks row `x (b, s)` of the table, or is 0
  for an id outside `0 … 255`; nothing below needs that reading: both programs form the same 256
  products in the same order of `v`, so the two sums are equal term by term, for every table —
  infinite entries included.

  The same sum is also stated over the ids laid out as one column of 8 · 8192 = 65536 rows, which is
  the arrangement the kernel works in: row `n = b · 8192 + s` of the column is id `(b, s)`.
-/
import Idealize.ShloMosaic.PureOps.Ideal
import Idealize.ShloMosaic.Lib.ValueIdx

noncomputable section

namespace Cert.Lookup

open Idealize.ShloMosaic Idealize.ShloMosaic.ValueIdx

/-- The weight of table row `v` for the id `a`: the 1-bit answer of `a = v` (on 32-bit words) read as
    the number 0 or 1. -/
def weight (a : BitVec 32) (v : Fin 256) : EReal :=
  FloatOps.uitofp (F := Ideal) .f32 (IntOp.cmpi .eq a (BitVec.ofNat 32 v.val))

/-- The lookup over ids `[8, 8192]`: entry `(b, s, d)` is the weighted sum of column `d` of the table. -/
def byToken (x : (⟨2, ![8, 8192]⟩ : Shape).Idx → BitVec 32) (w : (⟨2, ![256, 512]⟩ : Shape).Idx → EReal) :
    (⟨3, ![8, 8192, 512]⟩ : Shape).Idx → EReal :=
  fun i => ∑ v : Fin 256, weight (x (ix2 (i 0) (i 1))) v * w (ix2 v (i 2))

/-- The lookup over the ids as one column `[65536, 1]`: entry `(n, d)` is the weighted sum of column `d`. -/
def byRow (x : (⟨2, ![65536, 1]⟩ : Shape).Idx → BitVec 32) (w : (⟨2, ![256, 512]⟩ : Shape).Idx → EReal) :
    (⟨2, ![65536, 512]⟩ : Shape).Idx → EReal :=
  fun j => ∑ v : Fin 256, weight (x (ix2 (j 0) 0)) v * w (ix2 v (j 1))

theorem byToken_apply (x : (⟨2, ![8, 8192]⟩ : Shape).Idx → BitVec 32) (w : (⟨2, ![256, 512]⟩ : Shape).Idx → EReal)
    (b : Fin 8) (s : Fin 8192) (d : Fin 512) :
    byToken x w (ix3 b s d) = ∑ v : Fin 256, weight (x (ix2 b s)) v * w (ix2 v d) := rfl

theorem byRow_apply (x : (⟨2, ![65536, 1]⟩ : Shape).Idx → BitVec 32) (w : (⟨2, ![256, 512]⟩ : Shape).Idx → EReal)
    (n : Fin 65536) (d : Fin 512) :
    byRow x w (ix2 n d) = ∑ v : Fin 256, weight (x (ix2 n 0)) v * w (ix2 v d) := rfl

/-- A 1-bit word widened with zeros to 32 bits and read as a SIGNED integer is the 1-bit word read as an
    UNSIGNED one: both are 0 or 1. The kernel forms its weights the first way, the reference the second. -/
theorem signed_widened_eq_unsigned (b : BitVec 1) :
    FloatOps.sitofp (F := Ideal) .f32 (b.setWidth 32) = FloatOps.uitofp (F := Ideal) .f32 b := by
  rcases BitVec.eq_zero_or_eq_one b with h | h <;> subst h <;>
    show (((_ : Int) : ℝ) : EReal) = (((_ : Nat) : ℝ) : EReal) <;> norm_num

end Cert.Lookup

end
-- ==== Proof.ReferenceLookup.lean ====
/-
  The reference computes the lookup.

  The reference widens the ids to `[8, 8192, 1]`, compares them with the row numbers `0 … 255` laid along a new last
  axis, reads each 1-bit answer as the number 0 or 1, and contracts that `[8, 8192, 256]` array of weights with the
  table over the row number. Read at `(b, s, d)` that is `Σ_v [x (b, s) = v] · w (v, d)`: the two widenings only
  repeat an id along the new axis, and the row number at position `v` is `v`.
-/
import proofs.«133830_j51745765982547_1_alg».proof.Proof.Gen.ReferenceIdeal.Read
import proofs.«133830_j51745765982547_1_alg».proof.Proof.Lookup

noncomputable section

namespace Cert.ReferenceIdeal.RefValue

open Cert.ReferenceIdeal Cert.ReferenceIdeal.Read Idealize.ShloMosaic Idealize.ShloMosaic.ValueIdx

/-- Both widenings undone: the id the weight at `(b, s, v)` compares is id `(b, s)`. -/
theorem id_index (b : Fin 8) (s : Fin 8192) (d : Fin 512) (v : Fin 256) :
    idx_main_call0_v0 (idx_main_call0_v2 (lidx_main_v1 (ix3 b s d) v)) = ix2 b s :=
  funext fun a => Fin.ext (by match a with | ⟨0, _⟩ => rfl | ⟨1, _⟩ => rfl)

/-- The table entry the product at `v` reads is `(v, d)`. -/
theorem table_index (b : Fin 8) (s : Fin 8192) (d : Fin 512) (v : Fin 256) :
    ridx_main_v1 (ix3 b s d) v = ix2 v d :=
  funext fun a => Fin.ext (by match a with | ⟨0, _⟩ => rfl | ⟨1, _⟩ => rfl)

/-- The reference's result, as a function of the two arguments, is the lookup. -/
theorem reference_eq (x0 : (⟨S8x8192, .i32⟩ : BufTy).Contents (Elt Ideal)) (x1 : (⟨S256x512, .f32⟩ : BufTy).Contents (Elt Ideal)) :
    val_main_v1 (F := Ideal) x0 x1 = Cert.Lookup.byToken x0 x1 := by
  funext i
  obtain ⟨b, s, d, rfl⟩ : ∃ (b : Fin 8) (s : Fin 8192) (d : Fin 512), i = ix3 b s d := ⟨i 0, i 1, i 2, eq_ix3 i⟩
  rw [val_main_v1_apply, Cert.Lookup.byToken_apply]
  refine Finset.sum_congr rfl fun v _ => ?_
  rw [val_main_v0_apply, val_main_call0_v4_apply, val_main_call0_v2_apply, val_main_call0_v0_apply,
    val_main_call0_v3_apply, val_main_call0_v1_apply, id_index, table_index]
  rfl

end Cert.ReferenceIdeal.RefValue

end
-- ==== Proof.BlockLookup.lean ====
/-
  What the kernel body computes from the blocks it loads.

  The body holds 2048 ids as a column `[2048, 1]` and the whole table `[256, 512]`. It repeats the column along 256
  lanes, compares it with the lane numbers `0 … 255`, widens each 1-bit answer to 32 bits, reads it as a signed integer
  (so 0 or 1), and multiplies that `[2048, 256]` array of weights into the table, starting from zero. Read at `(r, d)`:

      Σ_{v < 256} [ids (r, 0) = v] · table (v, d).

  The change of float format on the weights is the identity on the extended reals, and the zero the product starts
  from adds nothing.
-/
import proofs.«133830_j51745765982547_1_alg».proof.Proof.Gen.KernelIdeal.Skeleton
import proofs.«133830_j51745765982547_1_alg».proof.Proof.Lookup
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-- The matrix product's dimension record: rows of the weights against columns of the table, one contracted axis. -/
abbrev D : DotDims S2048x256 S256x512 S2048x512 := dot_S2048x256_S256x512_S2048x512_1_0_0_1_n_n

theorem lhs_row (j : S2048x512.Idx) (q : D.contr.Idx) : (D.lhsIdx j q 0).val = (j 0).val := by
  unfold DotDims.lhsIdx
  rw [dif_neg (show ¬(0 : Fin S2048x256.rank) ∈ D.lhsBatch by decide),
    dif_pos (show (0 : Fin S2048x256.rank) ∈ D.lhsNonContracting by decide)]
  rfl
theorem lhs_lane (j : S2048x512.Idx) (q : D.contr.Idx) : (D.lhsIdx j q 1).val = (q ⟨0, by decide⟩).val :=
  D.lhsIdx_val_of_single rfl j q
theorem rhs_row (j : S2048x512.Idx) (q : D.contr.Idx) : (D.rhsIdx j q 0).val = (q ⟨0, by decide⟩).val :=
  D.rhsIdx_val_of_single rfl j q
theorem rhs_col (j : S2048x512.Idx) (q : D.contr.Idx) : (D.rhsIdx j q 1).val = (j 1).val := by
  unfold DotDims.rhsIdx
  rw [dif_neg (show ¬(1 : Fin S256x512.rank) ∈ D.rhsBatch by decide),
    dif_pos (show (1 : Fin S256x512.rank) ∈ D.rhsNonContracting by decide)]
  rfl

/-- The id column repeated along the lanes reads, at lane `v` of row `r`, the id of row `r`. -/
theorem ids_apply (x0 : IVec S2048x1 32) (h1 : S2048x1.ShapeCasts S2048x1) (h2 : S2048x1.Broadcasts S2048x256)
    (r : Fin 2048) (v : Fin 256) :
    broadcastTo S2048x256 (shapeCast S2048x1 x0 h1) h2 (ix2 r v) = x0 (ix2 r 0) := by
  rw [shapeCast_self]
  exact broadcastTo_apply x0 h2 (ix2 r v) (ix2 r 0) (fun a => match a with
    | ⟨0, _⟩ => by show r.val = if (2048 : Nat) = 1 then 0 else r.val; rw [if_neg (by decide)]
    | ⟨1, _⟩ => by show 0 = if (1 : Nat) = 1 then 0 else v.val; rw [if_pos rfl])

/-- The lane numbers read, at lane `v`, the 32-bit word of `v`. -/
theorem lanes_apply (h3 : S2048x256.Iotas .tc 32 [1]) (r : Fin 2048) (v : Fin 256) :
    iota .tc S2048x256 32 [1] h3 (ix2 r v) = BitVec.ofNat 32 v.val :=
  iota_single_apply .tc S2048x256 32 1 h3 (ix2 r v)

/-- The weights the body forms are the lookup's weights of the row's id. -/
theorem weights_apply (x0 : IVec S2048x1 32) (h1 : S2048x1.ShapeCasts S2048x1) (h2 : S2048x1.Broadcasts S2048x256)
    (h3 : S2048x256.Iotas .tc 32 [1]) (h4 : 1 < 32) (h5 : FTy.bits .bf16 < FTy.bits .f32) (r : Fin 2048) (v : Fin 256) :
    (truncf .bf16 (sitofp (F := Ideal) .f32 (extui 32 (cmpi .eq (broadcastTo S2048x256 (shapeCast S2048x1 x0 h1) h2)
      (iota .tc S2048x256 32 [1] h3)) h4)) h5 : FVec Ideal S2048x256 .bf16) (ix2 r v)
      = Cert.Lookup.weight (x0 (ix2 r 0)) v := by
  show FloatOps.sitofp (F := Ideal) .f32 ((IntOp.cmpi .eq (broadcastTo S2048x256 (shapeCast S2048x1 x0 h1) h2 (ix2 r v))
      (iota .tc S2048x256 32 [1] h3 (ix2 r v))).setWidth 32) = _
  rw [ids_apply, lanes_apply, Cert.Lookup.signed_widened_eq_unsigned]
  rfl

/-- THE BLOCK: the body's stored value at `(r, d)` is the weighted sum of column `d` of the table block. -/
theorem block_apply (x0 : Vec Ideal S2048x1 .i32) (x1 : Vec Ideal S256x512 .bf16) (r : Fin 2048) (d : Fin 512) :
    k0_pay1 (F := Ideal) x0 x1 (ix2 r d) = ∑ v : Fin 256, Cert.Lookup.weight (x0 (ix2 r 0)) v * x1 (ix2 v d) := by
  unfold k0_pay1
  refine (Ideal.matmul_constant_zero_apply D none _ _ (ix2 r d)).trans ?_
  rw [← Equiv.sum_comp (contrEquiv1 D 256 rfl rfl).symm]
  refine Finset.sum_congr rfl fun v _ => ?_
  have hv := contrEquiv1_symm_val D 256 rfl rfl v
  have el : D.lhsIdx (ix2 r d) ((contrEquiv1 D 256 rfl rfl).symm v) = ix2 r v := funext fun a => Fin.ext (by
    match a with
    | ⟨0, _⟩ => exact lhs_row _ _
    | ⟨1, _⟩ => exact (lhs_lane _ _).trans hv)
  have er : D.rhsIdx (ix2 r d) ((contrEquiv1 D 256 rfl rfl).symm v) = ix2 v d := funext fun a => Fin.ext (by
    match a with
    | ⟨0, _⟩ => exact (rhs_row _ _).trans hv
    | ⟨1, _⟩ => exact rhs_col _ _)
  rw [el, er, weights_apply, shapeCast_self]

end Cert.KernelIdeal.BlockValue

end
-- ==== Proof.RowsValue.lean ====
/-
  The array the region leaves.

  The region works on the ids as one column `[65536, 1]` and writes an array `[65536, 512]`. Its grid has 32 points;
  point `t` loads rows `2048 t … 2048 t + 2047` of the id column and the whole table, and writes back rows
  `2048 t … 2048 t + 2047` of the result. What it writes at row `r` of its block is the weighted sum for the id in row
  `r` of its id block, that is for id `2048 t + r` of the column: every point writes a block of ONE function of the
  column and the table, the lookup by rows. The 32 blocks tile the result (row `n` lies in block `n / 2048`), so after the
  region the whole array is that function.
-/
import proofs.«133830_j51745765982547_1_alg».proof.Proof.Gen.KernelIdeal.Frame
import proofs.«133830_j51745765982547_1_alg».proof.Proof.BlockLookup
import Idealize.ShloMosaic.Lib.Pipeline.Value

set_option maxRecDepth 16384

noncomputable section

namespace Cert.KernelIdeal.RowsValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

theorem origin : (![0, 0] : Fin 2 → Nat) = fun _ => 0 := funext fun a => by fin_cases a <;> rfl

/-- The block numbers at point `t`, decided over the 32 points: the id column and the result move together, block `t`
    along the rows; the table is always its one block. -/
theorem block_numbers : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of point `t`'s id block is row `2048 t + r` of the id column as the region finds it. -/
theorem ids_block (c : Dev nD) (t : Fin cfg0.N) (y : S2048x1.Idx) (i : S65536x1.Idx)
    (h0 : (i 0).val = t.val * 2048 + (y 0).val) (h1 : (i 1).val = 0) :
    iblk m c 0 t y = V m c main_v0 i := by
  obtain ⟨e0, e1, e2, e3, e4, e5⟩ := block_numbers t
  show V m c main_v0 (((cfg0.win 0).blk t).view.emb y) = V m c main_v0 i
  refine congrArg _ (funext fun a => Fin.ext ?_)
  match a with
  | ⟨0, _⟩ => show win0_0.index t (0 : Fin 2) * 2048 + 1 * (y 0).val = (i 0).val; omega
  | ⟨1, _⟩ => show win0_0.index t (1 : Fin 2) * 1 + 1 * (y 1).val = (i 1).val; have hy : (y 1).val < 1 := (y 1).isLt; omega

/-- Every point's table block is the whole table as the region finds it. -/
theorem table_block (c : Dev nD) (t : Fin cfg0.N) (y : S256x512.Idx) :
    iblk m c 1 t y = V m c main_v1 y := by
  obtain ⟨e0, e1, e2, e3, e4, e5⟩ := block_numbers t
  show V m c main_v1 (((cfg0.win 1).blk t).view.emb y) = V m c main_v1 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 512 + 1 * (y 1).val = (y 1).val; omega

/-- The body's stored value at any index of its block, by coordinates. -/
theorem block_at (x0 : Vec Ideal S2048x1 .i32) (x1 : Vec Ideal S256x512 .bf16) (j : S2048x512.Idx) :
    k0_pay1 (F := Ideal) x0 x1 j = ∑ v : Fin 256, Cert.Lookup.weight (x0 (ix2 (j 0) 0)) v * x1 (ix2 v (j 1)) := by
  obtain ⟨r, d, rfl⟩ : ∃ (r : Fin 2048) (d : Fin 512), j = ix2 r d := ⟨j 0, j 1, eq_ix2 j⟩
  exact BlockValue.block_apply x0 x1 r d

/-- WHAT POINT `t` WRITES BACK is block `t` of the lookup by rows of the id column and the table the region finds. -/
theorem flushed_eq (c : Dev nD) (t : Fin cfg0.N) :
    (dats m 0 c).flushed 2 t
      = ((cfg0.win 2).blk t).view.read (Elt Ideal) (Cert.Lookup.byRow (V m c main_v0) (V m c main_v1)) := by
  show (cfg0.win 2).cut (grid0.coords t) ((dats m 0 c).after 2 t) = _
  rw [after0_2]
  unfold out0_2
  rw [View.canon_unit_zero origin]
  simp only [View.ld_unit_zero (S := S2048x1) origin, View.ld_unit_zero (S := S256x512) origin]
  obtain ⟨e0, e1, e2, e3, e4, e5⟩ := block_numbers t
  funext j
  show k0_pay1 (F := Ideal) (iblk m c 0 t) (iblk m c 1 t) j
    = ∑ v : Fin 256, Cert.Lookup.weight (V m c main_v0 (ix2 ((((cfg0.win 2).blk t).view.emb j) 0) 0)) v
        * V m c main_v1 (ix2 v ((((cfg0.win 2).blk t).view.emb j) 1))
  refine (block_at (iblk m c 0 t) (iblk m c 1 t) j).trans ?_
  refine Finset.sum_congr rfl fun v _ => ?_
  have hid : iblk m c 0 t (ix2 (j 0) 0) = V m c main_v0 (ix2 ((((cfg0.win 2).blk t).view.emb j) 0) 0) :=
    ids_block m c t (ix2 (j 0) 0) (ix2 ((((cfg0.win 2).blk t).view.emb j) 0) 0)
      (by show win0_2.index t (0 : Fin 2) * 2048 + 1 * (j 0).val = t.val * 2048 + (j 0).val; omega) rfl
  have htb : iblk m c 1 t (ix2 v (j 1)) = V m c main_v1 (ix2 v ((((cfg0.win 2).blk t).view.emb j) 1)) :=
    (table_block m c t (ix2 v (j 1))).trans (congrArg _ (funext fun a => Fin.ext (by
      match a with
      | ⟨0, _⟩ => rfl
      | ⟨1, _⟩ => show (j 1).val = win0_2.index t (1 : Fin 2) * 512 + 1 * (j 1).val; omega)))
  rw [hid, htb]

/-- An index of the result is in point `t`'s block iff each coordinate is in the block's range on its axis. -/
theorem mem_block (t : Fin cfg0.N) (i : S65536x512.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v2).slice (win0_2.rect t)).set ↔ _
  rw [View.set_slice_whole, Rect.mem_set_unit]
  exact Iff.rfl

/-- Every index of the result lies in the block of the point numbered by its row divided by 2048. -/
theorem covered (i : S65536x512.Idx) :
    ∃ t : Fin cfg0.N, (cfg0.win 2).flush t = true ∧ i ∈ ((cfg0.win 2).blk t).view.set := by
  have hi0 : (i 0).val < 65536 := (i 0).isLt
  have hi1 : (i 1).val < 512 := (i 1).isLt
  have hN : cfg0.N = 32 := N_0
  let t : Fin cfg0.N := ⟨(i 0).val / 2048, by rw [hN]; omega⟩
  have ht : t.val = (i 0).val / 2048 := rfl
  obtain ⟨e0, e1, e2, e3, e4, e5⟩ := block_numbers t
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- THE RESULT ARRAY after the region: the lookup by rows of the id column and the table as the region finds them. -/
theorem rows_final (c : Dev nD) :
    (dats m 0 c).arrAt 2 cfg0.N = Cert.Lookup.byRow (V m c main_v0) (V m c main_v1) :=
  (dats m 0 c).arrAt_eq_of_cover 2 _ (fun t _ => flushed_eq m c t) covered

end Cert.KernelIdeal.RowsValue

end
-- ==== Proof.Arrangement.lean ====
/-
  The two arrangements of the lookup agree.

  Laying the ids `[8, 8192]` out as a column `[65536, 1]` puts id `(b, s)` in row `b · 8192 + s`; laying a result
  `[65536, 512]` out as `[8, 8192, 512]` puts entry `(b, s, d)` at row `b · 8192 + s`, column `d` (both keep the
  row-major order of the elements). So the lookup by rows of the flattened ids, re-laid, is the lookup by token: the
  entry `(b, s, d)` of either is the weighted sum for id `(b, s)` over column `d` of the table.
-/
import proofs.«133830_j51745765982547_1_alg».proof.Proof.Lookup
import Idealize.ShloMosaic.Lib.Pipeline.Value

noncomputable section

namespace Cert.Lookup

open Idealize.ShloMosaic Idealize.ShloMosaic.ValueIdx

/-- Row `b · 8192 + s` of the id column is id `(b, s)`. -/
theorem column_apply (x : (⟨2, ![8, 8192]⟩ : Shape).Idx → BitVec 32)
    (h : (⟨2, ![8, 8192]⟩ : Shape).ShapeCasts ⟨2, ![65536, 1]⟩) (b : Fin 8) (s : Fin 8192) (n : Fin 65536)
    (hn : n.val = b.val * 8192 + s.val) :
    shapeCast ⟨2, ![65536, 1]⟩ x h (ix2 n (0 : Fin 1)) = x (ix2 b s) :=
  shapeCast_apply x h _ _ (by
    rw [Shape.rowMajor_val_two, Shape.rowMajor_val_two]
    show b.val * 8192 + s.val = n.val * 1 + 0
    omega)

/-- The lookup by rows of the flattened ids, re-laid as `[8, 8192, 512]`, is the lookup by token. -/
theorem relaid_byRow (x : (⟨2, ![8, 8192]⟩ : Shape).Idx → BitVec 32) (w : (⟨2, ![256, 512]⟩ : Shape).Idx → EReal)
    (h1 : (⟨2, ![8, 8192]⟩ : Shape).ShapeCasts ⟨2, ![65536, 1]⟩)
    (h2 : (⟨2, ![65536, 512]⟩ : Shape).ShapeCasts ⟨3, ![8, 8192, 512]⟩) :
    shapeCast ⟨3, ![8, 8192, 512]⟩ (byRow (shapeCast ⟨2, ![65536, 1]⟩ x h1) w) h2 = byToken x w := by
  funext i
  obtain ⟨b, s, d, rfl⟩ : ∃ (b : Fin 8) (s : Fin 8192) (d : Fin 512), i = ix3 b s d := ⟨i 0, i 1, i 2, eq_ix3 i⟩
  have hb : b.val < 8 := b.isLt
  have hs : s.val < 8192 := s.isLt
  let n : Fin 65536 := ⟨b.val * 8192 + s.val, by omega⟩
  have e : shapeCast ⟨3, ![8, 8192, 512]⟩ (byRow (shapeCast ⟨2, ![65536, 1]⟩ x h1) w) h2 (ix3 b s d)
      = byRow (shapeCast ⟨2, ![65536, 1]⟩ x h1) w (ix2 n d) :=
    shapeCast_apply _ h2 _ _ (by
      rw [Shape.rowMajor_val_two, Shape.rowMajor_val_three]
      show n.val * 512 + d.val = (b.val * 8192 + s.val) * 512 + d.val
      rfl)
  rw [e, byRow_apply, byToken_apply, column_apply x h1 b s n rfl]

end Cert.Lookup

end
-- ==== Proof.KernelLookup.lean ====
/-
  The kernel program's result.

  Before the region the program lays the ids out as a column `[65536, 1]` and changes the table's float format, which is
  the identity on the extended reals; after the region it lays the `[65536, 512]` array the region wrote out as
  `[8, 8192, 512]`. The region leaves the lookup by rows of what it finds, so the program's result is the lookup by rows
  of the flattened ids and the table, re-laid — which is the lookup by token of the two arguments. The arguments
  themselves are written by no line of the program.
-/
import proofs.«133830_j51745765982547_1_alg».proof.Proof.RowsValue
import proofs.«133830_j51745765982547_1_alg».proof.Proof.Arrangement
import Idealize.ShloMosaic.Lib.StableHlo.Run

set_option maxRecDepth 16384

noncomputable section

namespace Cert.KernelIdeal.LookupValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The id column the region finds is the id argument laid out as `[65536, 1]`. -/
theorem ids_found (c : Dev nD) :
    (V m c main_v0 : S65536x1.Idx → BitVec 32)
      = shapeCast S65536x1 (m ((c : Thread nD τ).loc main_arg0)) shapeCasts_S8x8192_S65536x1 := by
  show StableHlo.after hostOps0 (fun b => m (c, b)) (Proc.devRef .tc main_v0) = _
  after_results <;> rfl

/-- The table the region finds is the table argument: the change of float format is the identity. -/
theorem table_found (c : Dev nD) :
    (V m c main_v1 : S256x512.Idx → EReal) = m ((c : Thread nD τ).loc main_arg1) := by
  show StableHlo.after hostOps0 (fun b => m (c, b)) (Proc.devRef .tc main_v1) = _
  after_results <;> rfl

/-- The array the last line reads is the one the region wrote: the lookup by rows. -/
theorem region_result (c : Dev nD) :
    Pipeline.withArrays (cfgs 0).spec c (V0 m c) (fun w => (dats m 0 c).arrAt w (cfgs 0).N) (Proc.devRef .tc main_v2)
      = Cert.Lookup.byRow (V m c main_v0) (V m c main_v1) :=
  (Pipeline.withArrays_arr spec0 launch0.win.arr_inj c _ _ 2).trans (RowsValue.rows_final m c)

/-- THE RESULT: after the last line the result buffer holds the lookup by token of the two arguments. -/
theorem result_eq (c : Dev nD) :
    Pipeline.afterTail₀ cfgs (dats m) 0 (V0 m) [hostOps1] c main_v3
      = Cert.Lookup.byToken (m ((c : Thread nD τ).loc main_arg0)) (m ((c : Thread nD τ).loc main_arg1)) := by
  unfold Pipeline.afterTail₀
  show StableHlo.after hostOps1 _ (Proc.devRef .tc main_v3) = _
  after_results
  rw [region_result, ids_found, table_found]
  exact Cert.Lookup.relaid_byRow _ _ shapeCasts_S8x8192_S65536x1 shapeCasts_S65536x512_S8x8192x512

/-- The program's run, read: every weakly fair execution terminates with the result at the lookup by token of the
    arguments and the arguments unchanged. -/
theorem run : θ_run defs (onTc (τ := τ) (main (F := Ideal))) ⟨m, fun _ => 0, ρ⟩ fun r => ∀ c : Dev nD,
      r.2.mem ((c.tc : Thread nD τ).loc main_v3)
        = Cert.Lookup.byToken (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.LookupValue

end
-- ==== Proof.lean ====
/-
  An embedding lookup written as a one-hot matrix product inside a kernel, against the same product written as a
  plain array program.

  Both programs take ids `x : [8, 8192]` (32-bit integers) and a table `w : [256, 512]` and return

      out (b, s, d) = Σ_{v < 256} [x (b, s) = v] · w (v, d)          (Proof/Lookup.lean),

  the weight `[·]` being 1 when the id is the row number `v` and 0 otherwise.

  The reference builds the `[8, 8192, 256]` array of weights on the host (ids compared with the row numbers, the 1-bit
  answer read as an unsigned integer) and contracts it with the table (Proof/ReferenceLookup.lean, over the generated
  run of the reference and its reads at an index).

  The kernel program lays the ids out as a column of 65536 rows, and a grid of 32 points each takes 2048 rows of that
  column and the whole table, forms the `[2048, 256]` block of weights (the 1-bit answer widened to 32 bits and read as
  a signed integer: again 0 or 1), multiplies it into the table from a zero start and writes 2048 rows of a
  `[65536, 512]` array (Proof/BlockLookup.lean: the block; Proof/RowsValue.lean: the 32 blocks tile the array, which ends
  as the lookup by rows); the program then lays that array out as `[8, 8192, 512]`, and row `b · 8192 + s` is token
  `(b, s)` (Proof/Arrangement.lean, Proof/KernelLookup.lean). The changes of float format on the way into the product
  are the identity on the extended reals.

  The two sums are the same 256 products in the same order, so they are equal for every table, infinite entries
  included: the precondition (a finite table) is not used by the value claim. No rewrite was applied when the kernel
  was idealized, so there is nothing to preserve. The three frame claims are the generated frame certificates of the
  two kernel programs and, for the reference, its generated run with the result forgotten.
-/
import proofs.«133830_j51745765982547_1_alg».proof.Defs
import proofs.«133830_j51745765982547_1_alg».proof.Proof.Gen.Kernel
import proofs.«133830_j51745765982547_1_alg».proof.Proof.Gen.Kernel.Skeleton
import proofs.«133830_j51745765982547_1_alg».proof.Proof.Gen.Kernel.Launch
import proofs.«133830_j51745765982547_1_alg».proof.Proof.Gen.Kernel.Points
import proofs.«133830_j51745765982547_1_alg».proof.Proof.Gen.Kernel.Frame
import proofs.«133830_j51745765982547_1_alg».proof.Proof.Gen.KernelIdeal
import proofs.«133830_j51745765982547_1_alg».proof.Proof.Gen.KernelIdeal.Skeleton
import proofs.«133830_j51745765982547_1_alg».proof.Proof.Gen.KernelIdeal.Launch
import proofs.«133830_j51745765982547_1_alg».proof.Proof.Gen.KernelIdeal.Points
import proofs.«133830_j51745765982547_1_alg».proof.Proof.Gen.KernelIdeal.Frame
import proofs.«133830_j51745765982547_1_alg».proof.Proof.Gen.ReferenceIdeal
import proofs.«133830_j51745765982547_1_alg».proof.Proof.Gen.Pre_finite_inputs
import proofs.«133830_j51745765982547_1_alg».proof.Proof.Gen.ReferenceIdeal.Run
import proofs.«133830_j51745765982547_1_alg».proof.Proof.Gen.ReferenceIdeal.Read
import proofs.«133830_j51745765982547_1_alg».proof.Proof.ReferenceLookup
import proofs.«133830_j51745765982547_1_alg».proof.Proof.KernelLookup
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the result forgotten: it terminates and leaves its arguments as they were. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the ids and the table, the kernel program ends at the lookup by token of its
    arguments and the reference at the lookup by token of its own: one array. -/
theorem algebraic : Cert.algebraic_KernelIdeal_ReferenceIdeal := by
  intro m ρ m' ρ' _ hagree
  refine ⟨fun c => Cert.Lookup.byToken (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.LookupValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.RefValue.reference_eq,
    (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
